-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S262144 : Shape := ⟨1, ![262144]⟩
abbrev S128x128 : Shape := ⟨2, ![128, 128]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S262144x128 .f32) (main_arg1 : IVec S262144 32) (main_arg2 : FVec F S128x128 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  main_v8
-- ==== Kernel.lean ====
abbrev S262144x128 : Shape := ⟨2, ![262144, 128]⟩
abbrev S262144 : Shape := ⟨1, ![262144]⟩
abbrev S128x128 : Shape := ⟨2, ![128, 128]⟩
abbrev S262144x1 : Shape := ⟨2, ![262144, 1]⟩
abbrev S2x1x128 : Shape := ⟨3, ![2, 1, 128]⟩
abbrev S8192x128 : Shape := ⟨2, ![8192, 128]⟩
abbrev S8192x1 : Shape := ⟨2, ![8192, 1]⟩
abbrev S1x1x128 : Shape := ⟨3, ![1, 1, 128]⟩
abbrev S1x128 : Shape := ⟨2, ![1, 128]⟩
abbrev S8192 : Shape := ⟨1, ![8192]⟩
abbrev S128 : Shape := ⟨1, ![128]⟩
abbrev S_ : Shape := ⟨0, ![]⟩

abbrev nBuf : Space → Nat
  | .hbm => 11
  | .vmem => 8
  | .smem => 0
  | _ => 0

abbrev bufTy : (tb : Table) → Fin (tcTables nBuf tb) → BufTy
  | .hbm, ⟨0, _⟩ => ⟨S262144x128, .f32⟩
  | .hbm, ⟨1, _⟩ => ⟨S262144, .i32⟩
  | .hbm, ⟨2, _⟩ => ⟨S128x128, .f32⟩
  | .hbm, ⟨3, _⟩ => ⟨S128x128, .f32⟩
  | .hbm, ⟨4, _⟩ => ⟨S128x128, .bf16⟩
  | .hbm, ⟨5, _⟩ => ⟨S262144x1, .i32⟩
  | .hbm, ⟨6, _⟩ => ⟨S2x1x128, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x1, .i32⟩
  | .local _ .vmem, ⟨3, _⟩ => ⟨S8192x1, .i32⟩
  | .local _ .vmem, ⟨4, _⟩ => ⟨S128x128, .bf16⟩
  | .local _ .vmem, ⟨5, _⟩ => ⟨S1x1x128, .f32⟩
  | .local _ .vmem, ⟨6, _⟩ => ⟨S1x1x128, .f32⟩
  | .local _ .vmem, ⟨7, _⟩ => ⟨S1x128, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v40 : BitVec 1 := Scalar.cmpi .eq arg1 c15_i32
  let v41 : BitVec 32 := Scalar.extui v40
  let c0_i32_16 : BitVec 32 := 0#32
  let v42 : BitVec 1 := Scalar.cmpi .ne v41 c0_i32_16
  v42

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S128x128_S128x128_1_0 : S128x128.Transposes [1, 0] S128x128
  bitsLt_bf16_f32 : FTy.bits .bf16 < FTy.bits .f32
  shapeCasts_S262144_S262144x1 : S262144.ShapeCasts S262144x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S8192x128_S8192x128_0_0 : ∀ a, (![0, 0] : Fin 2 → Nat) a + S8192x128.size a ≤ S8192x128.size a
  h_S8192x128 : 0 < S8192x128.numel
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  iota_S8192x128_d1_w32 : S8192x128.Iotas .tc 32 [1]
  broadcasts_S8192x1_S8192x128 : S8192x1.Broadcasts S8192x128
  natLt_1_32 : 1 < 32
  reduces_S8192x128_S8192 : S8192x128.Reduces [1] S8192
  shapeCasts_S8192_S8192x1 : S8192.ShapeCasts S8192x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reduces_S8192x128_S128 : S8192x128.Reduces [0] S128
  shapeCasts_S128_S1x128 : S128.ShapeCasts S1x128
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  reducesTo_S2x1x128_S_d0_1_2 : S2x1x128.ReducesTo [0, 1, 2] S_
  h_S_ : 0 < S_.numel
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x1.size a ≤ S262144x1.size a
  hwx0_1 : ∀ i : grid0.Coords, EltTy.bits .i32 = 32 ∨ (Rect.block (s := S262144x1) S8192x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S2x1x128.size a
  hwx0_3 : ∀ i : grid0.Coords, EltTy.bits .f32 = 32 ∨ (Rect.block (s := S2x1x128) S1x1x128.size (cc0_transform_3 i) (hinb0_3 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S8192x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S262144x128 : Shape := ⟨2, ![262144, 128]⟩
abbrev S262144 : Shape := ⟨1, ![262144]⟩
abbrev S128x128 : Shape := ⟨2, ![128, 128]⟩
abbrev S262144x1 : Shape := ⟨2, ![262144, 1]⟩
abbrev S1x128 : Shape := ⟨2, ![1, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S262144, .i32⟩
  | .hbm, ⟨2, _⟩ => ⟨S128x128, .f32⟩
  | .hbm, ⟨3, _⟩ => ⟨S262144x1, .i32⟩
  | .hbm, ⟨4, _⟩ => ⟨S1x128, .i32⟩
  | .hbm, ⟨5, _⟩ => ⟨S262144x128, .i32⟩
  | .hbm, ⟨6, _⟩ => ⟨S262144x128, .i32⟩
  | .hbm, ⟨7, _⟩ => ⟨S262144x128, .i1⟩
  | .hbm, ⟨8, _⟩ => ⟨S262144x128, .f32⟩
  | .hbm, ⟨9, _⟩ => ⟨S_, .f32⟩
  | .hbm, ⟨10, _⟩ => ⟨S262144, .f32⟩
  | .hbm, ⟨11, _⟩ => ⟨S262144x1, .f32⟩
  | .hbm, ⟨12, _⟩ => ⟨S262144x128, .f32⟩
  | .hbm, ⟨13, _⟩ => ⟨S262144x128, .f32⟩
  | .hbm, ⟨14, _⟩ => ⟨S262144x128, .f32⟩
  | .hbm, ⟨15, _⟩ => ⟨S_, .f32⟩
  | .hbm, ⟨16, _⟩ => ⟨S262144x128, .f32⟩
  | .hbm, ⟨17, _⟩ => ⟨S262144x128, .f32⟩
  | .hbm, ⟨18, _⟩ => ⟨S262144x128, .f32⟩
  | .hbm, ⟨19, _⟩ => ⟨S262144x128, .f32⟩
  | .hbm, ⟨20, _⟩ => ⟨S262144x128, .f32⟩
  | .hbm, ⟨21, _⟩ => ⟨S_, .f32⟩
  | .hbm, ⟨22, _⟩ => ⟨S262144x128, .f32⟩
  | .hbm, ⟨23, _⟩ => ⟨S262144x128, .f32⟩
  | .hbm, ⟨24, _⟩ => ⟨S262144x128, .f32⟩
  | .hbm, ⟨25, _⟩ => ⟨S262144x128, .f32⟩
  | .hbm, ⟨26, _⟩ => ⟨S_, .f32⟩
  | .hbm, ⟨27, _⟩ => ⟨S262144x128, .f32⟩
  | .hbm, ⟨28, _⟩ => ⟨S262144x128, .f32⟩
  | .hbm, ⟨29, _⟩ => ⟨S262144x128, .f32⟩
  | .hbm, ⟨30, _⟩ => ⟨S262144x128, .f32⟩
  | .hbm, ⟨31, _⟩ => ⟨S_, .f32⟩
  | .hbm, ⟨32, _⟩ => ⟨S262144, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩

abbrev nD : Nat := 1
abbrev τ : Topo := Topo.v7x

variable {F : FTy → Type} [FloatOps F]

class Facts₀ : Prop where
  bcast_S262144_S262144x1_0 : S262144.BroadcastsInDim S262144x1 (![0] : Fin 1 → Fin S262144x1.rank)
  bcast_S262144x1_S262144x128_0_1 : S262144x1.BroadcastsInDim S262144x128 (![0, 1] : Fin 2 → Fin S262144x128.rank)
  bcast_S1x128_S262144x128_0_1 : S1x128.BroadcastsInDim S262144x128 (![0, 1] : Fin 2 → Fin S262144x128.rank)
  reducesTo_S262144x128_S262144_d1 : S262144x128.ReducesTo [1] S262144
  h_S_ : 0 < S_.numel
  bcast_S_S262144x128 : S_.BroadcastsInDim S262144x128 (![] : Fin 0 → Fin S262144x128.rank)
  reducesTo_S262144_S_d0 : S262144.ReducesTo [0] S_
  dot_S262144x128_S128x128_S262144x128_1_1_0_0_n_n_wf : DotDims.WF S262144x128 S128x128 S262144x128 [1] [1] [0] [0] [] []

variable [Facts₀]

def dot_S262144x128_S128x128_S262144x128_1_1_0_0_n_n : DotDims S262144x128 S128x128 S262144x128 where
  lhsContracting := [1]
  rhsContracting := [1]
  lhsNonContracting := [0]
  rhsNonContracting := [0]
  lhsBatch := []
  rhsBatch := []
  wf := dot_S262144x128_S128x128_S262144x128_1_1_0_0_n_n_wf

class Facts : Prop extends Facts₀ where

variable [Facts]
-- ==== Proof.KernelPieces.lean ====
/-
  What each case of the body leaves behind, as values.

  The body keeps a running row of 128 partial sums in a scratch buffer. At the first step of a group of sixteen
  it stores a row of zeros there, reads it back, and stores that plus the step's column sums; at the other steps
  it stores the row it found plus the step's column sums; and at the last step of a group it also copies the row it
  has just stored into the output block. Each statement below reads the covering stores the run found back as
  one value: the payload of the loads the step made, a load of a whole buffer reading the buffer's contents.
-/
import proofs.«146837_j3049426780528_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First step of a group: the scratch row ends at the zero row plus the step's column sums. -/
theorem scratch_A (c : Dev nD) (i : grid0.Coords) (arg2 : Memref sig .tc .vmem S8192x128 .f32) (harg2 : arg2.IsWhole) (arg3 : Memref sig .tc .vmem S8192x1 .i32) (harg3 : arg3.IsWhole) (arg4 : Memref sig .tc .vmem S128x128 .bf16) (harg4 : arg4.IsWhole) (arg5 : Memref sig .tc .vmem S1x1x128 .f32) (harg5 : arg5.IsWhole) (arg6 : Memref sig .tc .vmem S1x128 .f32) (harg6 : arg6.IsWhole) (hc0 : cond0_0 i) (hc1 : ¬cond0_1 i)
    (x0 : Vec F S8192x128 .f32) (x1 : Vec F S8192x1 .i32) (x2 : Vec F S128x128 .bf16) :
    sout0_A_0 c i arg2 harg2 arg3 harg3 arg4 harg4 arg5 harg5 arg6 harg6 hc0 hc1 x0 x1 x2 = k0_pay1 (k0_pay4 x0 x1 x2 (k0_pay3 (F := F))) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1x128) hz2, View.readCov_unit_zero (S := S1x128) _ hz2]
  simp only [View.readAt_eq_ld, harg2.read_unread, harg3.read_unread, harg4.read_unread, harg5.read_unread, harg6.read_unread, View.ld_unit_zero (S := S8192x128) hz2, View.ld_unit_zero (S := S8192x1) hz2, View.ld_unit_zero (S := S128x128) hz2, View.ld_unit_zero (S := S1x128) hz2, View.ld_unit_zero (S := S1x1x128) hz3]

/-- A middle step: the scratch row ends at the row it held plus the step's column sums. -/
theorem scratch_B (c : Dev nD) (i : grid0.Coords) (arg2 : Memref sig .tc .vmem S8192x128 .f32) (harg2 : arg2.IsWhole) (arg3 : Memref sig .tc .vmem S8192x1 .i32) (harg3 : arg3.IsWhole) (arg4 : Memref sig .tc .vmem S128x128 .bf16) (harg4 : arg4.IsWhole) (arg5 : Memref sig .tc .vmem S1x1x128 .f32) (harg5 : arg5.IsWhole) (arg6 : Memref sig .tc .vmem S1x128 .f32) (harg6 : arg6.IsWhole) (hc0 : ¬cond0_0 i) (hc1 : ¬cond0_1 i)
    (x0 : Vec F S8192x128 .f32) (x1 : Vec F S8192x1 .i32) (x2 : Vec F S128x128 .bf16) (xs0 : Vec F S1x128 .f32) :
    sout0_B_0 c i arg2 harg2 arg3 harg3 arg4 harg4 arg5 harg5 arg6 harg6 hc0 hc1 x0 x1 x2 xs0 = k0_pay1 (k0_pay4 x0 x1 x2 xs0) := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz2]
  simp only [View.readAt_eq_ld, harg2.read_unread, harg3.read_unread, harg4.read_unread, harg5.read_unread, harg6.read_unread, View.ld_unit_zero (S := S8192x128) hz2, View.ld_unit_zero (S := S8192x1) hz2, View.ld_unit_zero (S := S128x128) hz2, View.ld_unit_zero (S := S1x128) hz2, View.ld_unit_zero (S := S1x1x128) hz3]

/-- Last step of a group: the scratch row likewise, -/
theorem scratch_C (c : Dev nD) (i : grid0.Coords) (arg2 : Memref sig .tc .vmem S8192x128 .f32) (harg2 : arg2.IsWhole) (arg3 : Memref sig .tc .vmem S8192x1 .i32) (harg3 : arg3.IsWhole) (arg4 : Memref sig .tc .vmem S128x128 .bf16) (harg4 : arg4.IsWhole) (arg5 : Memref sig .tc .vmem S1x1x128 .f32) (harg5 : arg5.IsWhole) (arg6 : Memref sig .tc .vmem S1x128 .f32) (harg6 : arg6.IsWhole) (hc0 : ¬cond0_0 i) (hc1 : cond0_1 i)
    (x0 : Vec F S8192x128 .f32) (x1 : Vec F S8192x1 .i32) (x2 : Vec F S128x128 .bf16) (xs0 : Vec F S1x128 .f32) :
    sout0_C_0 c i arg2 harg2 arg3 harg3 arg4 harg4 arg5 harg5 arg6 harg6 hc0 hc1 x0 x1 x2 xs0 = k0_pay1 (k0_pay4 x0 x1 x2 xs0) := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz2]
  simp only [View.readAt_eq_ld, harg2.read_unread, harg3.read_unread, harg4.read_unread, harg5.read_unread, harg6.read_unread, View.ld_unit_zero (S := S8192x128) hz2, View.ld_unit_zero (S := S8192x1) hz2, View.ld_unit_zero (S := S128x128) hz2, View.ld_unit_zero (S := S1x128) hz2, View.ld_unit_zero (S := S1x1x128) hz3]

/-- and the output block is that row, given a leading unit axis. -/
theorem out_C (c : Dev nD) (i : grid0.Coords) (arg2 : Memref sig .tc .vmem S8192x128 .f32) (harg2 : arg2.IsWhole) (arg3 : Memref sig .tc .vmem S8192x1 .i32) (harg3 : arg3.IsWhole) (arg4 : Memref sig .tc .vmem S128x128 .bf16) (harg4 : arg4.IsWhole) (arg5 : Memref sig .tc .vmem S1x1x128 .f32) (harg5 : arg5.IsWhole) (arg6 : Memref sig .tc .vmem S1x128 .f32) (harg6 : arg6.IsWhole) (hc0 : ¬cond0_0 i) (hc1 : cond0_1 i)
    (x0 : Vec F S8192x128 .f32) (x1 : Vec F S8192x1 .i32) (x2 : Vec F S128x128 .bf16) (xs0 : Vec F S1x128 .f32) :
    out0_C_3 c i arg2 harg2 arg3 harg3 arg4 harg4 arg5 harg5 arg6 harg6 hc0 hc1 x0 x1 x2 xs0 = k0_pay2 (k0_pay1 (k0_pay4 x0 x1 x2 xs0)) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz3, View.readCov_unit_zero (S := S1x128) _ hz2]
  simp only [View.readAt_eq_ld, harg2.read_unread, harg3.read_unread, harg4.read_unread, harg5.read_unread, harg6.read_unread, View.ld_unit_zero (S := S8192x128) hz2, View.ld_unit_zero (S := S8192x1) hz2, View.ld_unit_zero (S := S128x128) hz2, View.ld_unit_zero (S := S1x128) hz2, View.ld_unit_zero (S := S1x1x128) hz3]

end Cert.KernelIdeal.Pieces

end
-- ==== Proof.Spec.lean ====
/-
  The mathematics of the seesaw loss, with no program in sight.

  For one sample with logits row x : Fin 128 → EReal, label word t and the class-pair table s, write
  m = max_k x k, e k = exp (x k - m), h k = 1 if k is the label and 0 otherwise. The loss term of class i is

      term i = (0 - h i) · log ( e i / ((Σ_k ((1 - h k) · e k) · s i k) + e i + ε) + ε ).

  The loss is the sum of the terms over all samples and classes, divided by the number of samples. Two ways of
  arranging that sum are compared here: a running sum over blocks of rows that restarts every sixteenth block
  (acc), whose value after the last block of each group of sixteen is the sum over the group (acc_closed); and
  the regrouping of a sum over 2 · 16 blocks of 8192 rows into one sum over all the rows (sum_regroup). Both
  use only that addition of extended reals is commutative and associative with 0 neutral, so nothing has to be finite.
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

namespace Cert.Spec

open Idealize.ShloMosaic

/-- The four float constants of the computation, kept as their bit patterns (the same words appear on both sides). -/
abbrev negInf : EReal := Ideal.ofBits .f32 0xFF800000#32
abbrev one : EReal := Ideal.ofBits .f32 0x3F800000#32
abbrev eps : EReal := Ideal.ofBits .f32 0x358637BD#32
abbrev cnt : EReal := Ideal.ofBits .f32 0x48800000#32

/-- A one-bit word read as the number 0 or 1. -/
def bit (b : BitVec 1) : EReal := ((b.toNat : ℝ) : EReal)

/-- The one-hot entry of class j for the label word t. -/
def hot (t : BitVec 32) (j : Fin 128) : EReal := bit (IntOp.cmpi .eq (BitVec.ofNat 32 j.val) t)

/-- The largest logit of a row (from -∞). -/
def rowMax (x : Fin 128 → EReal) : EReal := (Finset.univ : Finset (Fin 128)).fold max negInf x

/-- The shifted exponentials of a row. -/
def expo (x : Fin 128 → EReal) (j : Fin 128) : EReal := Ideal.exp (x j - rowMax x)

/-- The loss term of class i for one sample. -/
def lossTerm (x : Fin 128 → EReal) (t : BitVec 32) (s : Fin 128 → Fin 128 → EReal) (i : Fin 128) : EReal :=
  (0 - hot t i) * Ideal.log (Ideal.div (expo x i)
    (((∑ k : Fin 128, ((one - hot t k) * expo x k) * s i k) + expo x i) + eps) + eps)

/-- Comparing two words for equality does not depend on their order. -/
theorem cmpi_eq_comm {w : ℕ} (a b : BitVec w) : IntOp.cmpi .eq a b = IntOp.cmpi .eq b a := by
  unfold IntOp.cmpi
  congr 1
  by_cases h : a = b
  · subst h; rfl
  · have h' : ¬ b = a := fun e => h e.symm
    simp [h, h']

/-- A one-bit word widened to 32 bits and read as a signed integer is 0 or 1, the bit itself. -/
theorem bit_of_signed (b : BitVec 1) : (((b.setWidth 32).toInt : ℝ) : EReal) = bit b := by
  unfold bit
  have : ∀ b : BitVec 1, (b.setWidth 32).toInt = (b.toNat : ℤ) := by decide
  rw [this b]
  norm_cast

/-! ## The running sum over blocks, restarted every sixteenth block -/

/-- After block n: the contribution of block n, added to the running sum unless n starts a group of sixteen. -/
def acc (contrib : ℕ → Fin 128 → EReal) : ℕ → Fin 128 → EReal
  | 0 => fun j => 0 + contrib 0 j
  | n + 1 => fun j => (if (n + 1) % 16 = 0 then 0 else acc contrib n j) + contrib (n + 1) j

theorem acc_step (contrib : ℕ → Fin 128 → EReal) (n : ℕ) (j : Fin 128) :
    acc contrib n j = (if n % 16 = 0 then 0 else acc contrib (n - 1) j) + contrib n j := by
  cases n with
  | zero => rfl
  | succ n => rfl

/-- Within a group of sixteen blocks the running sum is the sum of the group's contributions so far. -/
theorem acc_closed (contrib : ℕ → Fin 128 → EReal) (a : ℕ) (j : Fin 128) :
    ∀ k : ℕ, k < 16 → acc contrib (16 * a + k) j = ∑ i ∈ Finset.range (k + 1), contrib (16 * a + i) j
  | 0, _ => by
    rw [acc_step, if_pos (by omega), zero_add, Finset.sum_range_one]
  | k + 1, hk => by
    rw [acc_step, if_neg (by omega), show 16 * a + (k + 1) - 1 = 16 * a + k by omega,
      acc_closed contrib a j k (by omega), Finset.sum_range_succ (fun i => contrib (16 * a + i) j) (k + 1)]

/-! ## Regrouping the rows -/

/-- A sum over 2 · 16 blocks of 8192 rows, the blocks taken group by group, is the sum over all the rows. Here
    contrib t j is the sum over the rows of block t of f · j, and row r of block t is row r + 8192 · t. -/
theorem sum_regroup (contrib : ℕ → Fin 128 → EReal) (f : Fin (2 * 16 * 8192) → Fin 128 → EReal)
    (hc : ∀ (t : Fin (2 * 16)) (j : Fin 128), contrib t.val j = ∑ r : Fin 8192, f (finProdFinEquiv (t, r)) j) :
    ∑ a : Fin 2, ∑ j : Fin 128, ∑ i ∈ Finset.range 16, contrib (16 * a.val + i) j
      = ∑ n : Fin (2 * 16 * 8192), ∑ j : Fin 128, f n j := by
  have e1 : ∑ n : Fin (2 * 16 * 8192), ∑ j : Fin 128, f n j
      = ∑ t : Fin (2 * 16), ∑ r : Fin 8192, ∑ j : Fin 128, f (finProdFinEquiv (t, r)) j := by
    rw [← finProdFinEquiv.sum_comp (fun n : Fin (2 * 16 * 8192) => ∑ j : Fin 128, f n j), Fintype.sum_prod_type]
  have h1 : ∀ t : Fin (2 * 16), ∑ r : Fin 8192, ∑ j : Fin 128, f (finProdFinEquiv (t, r)) j
      = ∑ j : Fin 128, contrib t.val j := fun t => by
    rw [Finset.sum_comm]
    exact Finset.sum_congr rfl fun j _ => (hc t j).symm
  have e2 : ∑ t : Fin (2 * 16), ∑ j : Fin 128, contrib t.val j
      = ∑ a : Fin 2, ∑ i : Fin 16, ∑ j : Fin 128, contrib (finProdFinEquiv (a, i)).val j := by
    rw [← finProdFinEquiv.sum_comp (fun t : Fin (2 * 16) => ∑ j : Fin 128, contrib t.val j), Fintype.sum_prod_type]
  rw [e1, Fintype.sum_congr _ _ h1, e2]
  refine Finset.sum_congr rfl fun a _ => ?_
  rw [Finset.sum_comm, ← Fin.sum_univ_eq_sum_range (fun i => ∑ j : Fin 128, contrib (16 * a.val + i) j) 16]
  refine Finset.sum_congr rfl fun i _ => Finset.sum_congr rfl fun j _ => ?_
  have hv : (finProdFinEquiv (a, i) : Fin (2 * 16)).val = 16 * a.val + i.val := by
    show i.val + 16 * a.val = 16 * a.val + i.val
    omega
  rw [hv]

end Cert.Spec

end
-- ==== Proof.LibColumnForms.lean ====
/-
  Two layout operations on a COLUMN, read at an index given by its coordinates.

  A row-wise reduction with `keepdims` leaves its result as a column: a vector of `a` entries is cast to the
  shape `[a, 1]`, and the column is then broadcast along the second axis to `[a, b]`. Each of the two steps
  reads, at an index of its result, the operand at one index: the cast at `(i, u)` reads entry `i` (the unit
  coordinate `u` is `0` and carries nothing), and the broadcast at `(p, c)` reads the column's entry `(p, 0)`
  (the column is constant along the second axis). General in the extents and in the element type.
-/
import Idealize.ShloMosaic.Lib.Pipeline.Value
import Idealize.ShloMosaic.Lib.ValueIdx

namespace Cert.ColumnForms

open Idealize.ShloMosaic Idealize.ShloMosaic.ValueIdx

variable {α : Type}

/-- A vector of `a` entries cast to the column shape `[a, 1]` reads, at `(i, u)`, entry `i`: both indices have
    row-major position `i`, since the unit coordinate is `0`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `(p, 0)`: the first axis is
    kept (or has extent one, where `p` is `0` anyway), the second is the column's unit axis. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnForms
-- ==== Proof.KernelPayload.lean ====
/-
  The body's arithmetic on one block of 8192 rows, read entry by entry over the extended reals.

  The body forms, from the block of logits, the column of labels and the transposed table, the matrix of loss
  terms: entry (r, i) is the loss term of class i for the sample in row r of the block (Spec.lossTerm), which
  depends on row r of the logits only through its maximum, its shifted exponentials and one row-by-table product.
  It then adds, to what the accumulator held, the sum of each column over the 8192 rows.
-/
import proofs.«146837_j3049426780528_2_alg».proof.Proof.Gen.KernelIdeal.Skeleton
import proofs.«146837_j3049426780528_2_alg».proof.Proof.Spec
import proofs.«146837_j3049426780528_2_alg».proof.Proof.LibColumnForms
import Idealize.ShloMosaic.Lib.ValueLayout
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx Cert.ColumnForms

/-- The block's one-hot matrix: entry (r, k) is 1 when class k is the label of row r. -/
def hotBlock (x1 : IVec S8192x1 32) : FVec Ideal S8192x128 .f32 :=
  sitofp .f32 (extui 32 (cmpi .eq (iota .tc S8192x128 32 [1] iota_S8192x128_d1_w32)
    (broadcastTo S8192x128 (shapeCast S8192x1 x1 shapeCasts_S8192x1_S8192x1) broadcasts_S8192x1_S8192x128)) natLt_1_32)

theorem hotBlock_apply (x1 : IVec S8192x1 32) (r : Fin 8192) (k : Fin 128) :
    hotBlock x1 (ix2 r k) = Spec.hot (x1 (ix2 r (0 : Fin 1))) k := by
  have e1 : iota .tc S8192x128 32 [1] iota_S8192x128_d1_w32 (ix2 r k) = BitVec.ofNat 32 k.val :=
    iota_single_apply .tc S8192x128 32 1 iota_S8192x128_d1_w32 (ix2 r k)
  have e2 : broadcastTo S8192x128 (shapeCast S8192x1 x1 shapeCasts_S8192x1_S8192x1) broadcasts_S8192x1_S8192x128 (ix2 r k)
      = x1 (ix2 r (0 : Fin 1)) := by
    rw [broadcastTo_a1_ab_apply, shapeCast_self]
  show FloatOps.sitofp (F := Ideal) .f32 ((IntOp.cmpi .eq (iota .tc S8192x128 32 [1] iota_S8192x128_d1_w32 (ix2 r k))
    (broadcastTo S8192x128 (shapeCast S8192x1 x1 shapeCasts_S8192x1_S8192x1) broadcasts_S8192x1_S8192x128 (ix2 r k))).setWidth 32) = _
  rw [e1, e2]
  exact Spec.bit_of_signed _

/-- The block's shifted exponentials: entry (r, k) is exp (x r k - max of row r). -/
def expBlock (x0 : FVec Ideal S8192x128 .f32) : FVec Ideal S8192x128 .f32 :=
  exp (subf x0 (broadcastTo S8192x128 (shapeCast S8192x1
    (multiReduction (F := Ideal) .maximumf [1] S8192 x0 0xFF800000#32 reduces_S8192x128_S8192 (.inl rfl) rfl)
    shapeCasts_S8192_S8192x1) broadcasts_S8192x1_S8192x128))

/-- The row maximum the body takes is the maximum of the row's 128 entries, from -∞. -/
theorem rowMax_apply (x0 : FVec Ideal S8192x128 .f32) (r : Fin 8192) :
    multiReduction (F := Ideal) .maximumf [1] S8192 x0 0xFF800000#32 reduces_S8192x128_S8192 (.inl rfl) rfl (ix1 r)
      = Spec.rowMax (fun k => x0 (ix2 r k)) := by
  refine (Ideal.multiReduction_maximumf_single x0 0xFF800000#32 reduces_S8192x128_S8192 (.inl rfl) rfl (ix1 r)).trans ?_
  unfold Spec.rowMax
  refine Finset.fold_congr fun k _ => ?_
  exact congrArg x0 (funext fun a => Fin.ext (by match a with | ⟨0, _⟩ => rfl | ⟨1, _⟩ => rfl))

theorem expBlock_apply (x0 : FVec Ideal S8192x128 .f32) (r : Fin 8192) (k : Fin 128) :
    expBlock x0 (ix2 r k) = Spec.expo (fun k' => x0 (ix2 r k')) k := by
  have e : broadcastTo S8192x128 (shapeCast S8192x1
      (multiReduction (F := Ideal) .maximumf [1] S8192 x0 0xFF800000#32 reduces_S8192x128_S8192 (.inl rfl) rfl)
      shapeCasts_S8192_S8192x1) broadcasts_S8192x1_S8192x128 (ix2 r k) = Spec.rowMax (fun k' => x0 (ix2 r k')) := by
    rw [broadcastTo_a1_ab_apply, shapeCast_a_a1_apply]
    exact rowMax_apply x0 r
  show Ideal.exp (x0 (ix2 r k) - broadcastTo S8192x128 (shapeCast S8192x1
      (multiReduction (F := Ideal) .maximumf [1] S8192 x0 0xFF800000#32 reduces_S8192x128_S8192 (.inl rfl) rfl)
      shapeCasts_S8192_S8192x1) broadcasts_S8192x1_S8192x128 (ix2 r k)) = _
  rw [e]
  rfl

/-- The masked exponentials the body multiplies by the table: (1 - one-hot) · exp. -/
def maskedBlock (x0 : FVec Ideal S8192x128 .f32) (x1 : IVec S8192x1 32) : FVec Ideal S8192x128 .f32 :=
  mulf (subf (broadcast S8192x128 (Scalar.ofBits (F := Ideal) .f32 0x3F800000#32)) (hotBlock x1)) (expBlock x0)

theorem maskedBlock_apply (x0 : FVec Ideal S8192x128 .f32) (x1 : IVec S8192x1 32) (r : Fin 8192) (k : Fin 128) :
    maskedBlock x0 x1 (ix2 r k)
      = (Spec.one - Spec.hot (x1 (ix2 r (0 : Fin 1))) k) * Spec.expo (fun k' => x0 (ix2 r k')) k := by
  show (Ideal.ofBits .f32 0x3F800000#32 - hotBlock x1 (ix2 r k)) * expBlock x0 (ix2 r k) = _
  rw [hotBlock_apply, expBlock_apply]

/-- The product with the table, into a zero accumulator. -/
def prodBlock (x0 : FVec Ideal S8192x128 .f32) (x1 : IVec S8192x1 32) (x2 : FVec Ideal S128x128 .bf16) :
    FVec Ideal S8192x128 .f32 :=
  matmul dot_S8192x128_S128x128_S8192x128_1_0_0_1_n_n none (truncf .bf16 (maskedBlock x0 x1) bitsLt_bf16_f32)
    (shapeCast S128x128 x2 shapeCasts_S128x128_S128x128) (constant (F := Ideal) S8192x128 .f32 0x00000000#32)

theorem lhs_0 (j : S8192x128.Idx) (q : dot_S8192x128_S128x128_S8192x128_1_0_0_1_n_n.contr.Idx) : (dot_S8192x128_S128x128_S8192x128_1_0_0_1_n_n.lhsIdx j q 0).val = (j 0).val := by
  unfold DotDims.lhsIdx
  rw [dif_neg (show ¬(0 : Fin S8192x128.rank) ∈ dot_S8192x128_S128x128_S8192x128_1_0_0_1_n_n.lhsBatch by decide),
    dif_pos (show (0 : Fin S8192x128.rank) ∈ dot_S8192x128_S128x128_S8192x128_1_0_0_1_n_n.lhsNonContracting by decide)]
  rfl
theorem lhs_1 (j : S8192x128.Idx) (q : dot_S8192x128_S128x128_S8192x128_1_0_0_1_n_n.contr.Idx) : (dot_S8192x128_S128x128_S8192x128_1_0_0_1_n_n.lhsIdx j q 1).val = (q ⟨0, by decide⟩).val :=
  dot_S8192x128_S128x128_S8192x128_1_0_0_1_n_n.lhsIdx_val_of_single rfl j q
theorem rhs_0 (j : S8192x128.Idx) (q : dot_S8192x128_S128x128_S8192x128_1_0_0_1_n_n.contr.Idx) : (dot_S8192x128_S128x128_S8192x128_1_0_0_1_n_n.rhsIdx j q 0).val = (q ⟨0, by decide⟩).val :=
  dot_S8192x128_S128x128_S8192x128_1_0_0_1_n_n.rhsIdx_val_of_single rfl j q
theorem rhs_1 (j : S8192x128.Idx) (q : dot_S8192x128_S128x128_S8192x128_1_0_0_1_n_n.contr.Idx) : (dot_S8192x128_S128x128_S8192x128_1_0_0_1_n_n.rhsIdx j q 1).val = (j 1).val := by
  unfold DotDims.rhsIdx
  rw [dif_neg (show ¬(1 : Fin S128x128.rank) ∈ dot_S8192x128_S128x128_S8192x128_1_0_0_1_n_n.rhsBatch by decide),
    dif_pos (show (1 : Fin S128x128.rank) ∈ dot_S8192x128_S128x128_S8192x128_1_0_0_1_n_n.rhsNonContracting by decide)]
  rfl

/-- Entry (r, i) of the product is the sum over k of the masked exponential (r, k) times the table's entry (k, i). -/
theorem prodBlock_apply (x0 : FVec Ideal S8192x128 .f32) (x1 : IVec S8192x1 32) (x2 : FVec Ideal S128x128 .bf16)
    (r : Fin 8192) (i : Fin 128) :
    prodBlock x0 x1 x2 (ix2 r i) = ∑ k : Fin 128, maskedBlock x0 x1 (ix2 r k) * x2 (ix2 k i) := by
  unfold prodBlock
  rw [shapeCast_self]
  refine (Ideal.matmul_constant_zero_apply dot_S8192x128_S128x128_S8192x128_1_0_0_1_n_n none _ _ (ix2 r i)).trans ?_
  rw [← Equiv.sum_comp (contrEquiv1 dot_S8192x128_S128x128_S8192x128_1_0_0_1_n_n 128 rfl rfl).symm]
  refine Finset.sum_congr rfl fun k _ => ?_
  have hk := contrEquiv1_symm_val dot_S8192x128_S128x128_S8192x128_1_0_0_1_n_n 128 rfl rfl k
  have el : dot_S8192x128_S128x128_S8192x128_1_0_0_1_n_n.lhsIdx (ix2 r i) ((contrEquiv1 dot_S8192x128_S128x128_S8192x128_1_0_0_1_n_n 128 rfl rfl).symm k) = ix2 r k := funext fun a => Fin.ext (by
    match a with
    | ⟨0, _⟩ => exact lhs_0 _ _
    | ⟨1, _⟩ => exact (lhs_1 _ _).trans hk)
  have er : dot_S8192x128_S128x128_S8192x128_1_0_0_1_n_n.rhsIdx (ix2 r i) ((contrEquiv1 dot_S8192x128_S128x128_S8192x128_1_0_0_1_n_n 128 rfl rfl).symm k) = ix2 k i := funext fun a => Fin.ext (by
    match a with
    | ⟨0, _⟩ => exact (rhs_0 _ _).trans hk
    | ⟨1, _⟩ => exact rhs_1 _ _)
  rw [el, er]
  rfl

/-- The matrix of loss terms of the block. -/
def termBlock (x0 : FVec Ideal S8192x128 .f32) (x1 : IVec S8192x1 32) (x2 : FVec Ideal S128x128 .bf16) :
    FVec Ideal S8192x128 .f32 :=
  mulf (subf (broadcast S8192x128 (Scalar.ofBits (F := Ideal) .f32 0x00000000#32)) (hotBlock x1))
    (log (addf (divf (expBlock x0)
      (addf (addf (prodBlock x0 x1 x2) (expBlock x0)) (broadcast S8192x128 (Scalar.ofBits (F := Ideal) .f32 0x358637BD#32))))
      (broadcast S8192x128 (Scalar.ofBits (F := Ideal) .f32 0x358637BD#32))))

theorem termBlock_apply (x0 : FVec Ideal S8192x128 .f32) (x1 : IVec S8192x1 32) (x2 : FVec Ideal S128x128 .bf16)
    (r : Fin 8192) (i : Fin 128) :
    termBlock x0 x1 x2 (ix2 r i)
      = Spec.lossTerm (fun k => x0 (ix2 r k)) (x1 (ix2 r (0 : Fin 1))) (fun i' k => x2 (ix2 k i')) i := by
  show (Ideal.ofBits .f32 0x00000000#32 - hotBlock x1 (ix2 r i)) * Ideal.log (Ideal.div (expBlock x0 (ix2 r i))
    ((prodBlock x0 x1 x2 (ix2 r i) + expBlock x0 (ix2 r i)) + Ideal.ofBits .f32 0x358637BD#32) + Ideal.ofBits .f32 0x358637BD#32) = _
  rw [prodBlock_apply, hotBlock_apply, expBlock_apply, Ideal.ofBits_zero_f32]
  unfold Spec.lossTerm
  congr 3
  refine congrArg (fun z => Ideal.div _ ((z + _) + _)) (Finset.sum_congr rfl fun k _ => ?_)
  rw [maskedBlock_apply]

/-- The sum of column j of the block's loss terms over its 8192 rows. -/
def blockSum (x0 : FVec Ideal S8192x128 .f32) (x1 : IVec S8192x1 32) (x2 : FVec Ideal S128x128 .bf16) (j : Fin 128) : EReal :=
  ∑ r : Fin 8192, Spec.lossTerm (fun k => x0 (ix2 r k)) (x1 (ix2 r (0 : Fin 1))) (fun i' k => x2 (ix2 k i')) j

/-- The accumulator's new contents are the old ones plus the column sums of the block's loss terms. -/
theorem pay4_eq (x0 : FVec Ideal S8192x128 .f32) (x1 : IVec S8192x1 32) (x2 : FVec Ideal S128x128 .bf16)
    (v35 : FVec Ideal S1x128 .f32) :
    k0_pay4 (F := Ideal) x0 x1 x2 v35 = addf v35 (shapeCast S1x128
      (multiReduction (F := Ideal) .add [0] S128 (termBlock x0 x1 x2) 0x00000000#32 reduces_S8192x128_S128 (.inl rfl) rfl)
      shapeCasts_S128_S1x128) := rfl

theorem colSum_apply (x0 : FVec Ideal S8192x128 .f32) (x1 : IVec S8192x1 32) (x2 : FVec Ideal S128x128 .bf16) (j : Fin 128) :
    multiReduction (F := Ideal) .add [0] S128 (termBlock x0 x1 x2) 0x00000000#32 reduces_S8192x128_S128 (.inl rfl) rfl (ix1 j)
      = blockSum x0 x1 x2 j := by
  refine (Ideal.multiReduction_add_single (termBlock x0 x1 x2) 0x00000000#32 reduces_S8192x128_S128 (.inl rfl) rfl (ix1 j)).trans ?_
  unfold blockSum
  refine Finset.sum_congr rfl fun r _ => ?_
  refine (congrArg (termBlock x0 x1 x2) (funext fun a => Fin.ext (by match a with | ⟨0, _⟩ => rfl | ⟨1, _⟩ => rfl))).trans
    (termBlock_apply x0 x1 x2 r j)

theorem pay4_apply (x0 : FVec Ideal S8192x128 .f32) (x1 : IVec S8192x1 32) (x2 : FVec Ideal S128x128 .bf16)
    (v35 : FVec Ideal S1x128 .f32) (j : Fin 128) :
    k0_pay4 (F := Ideal) x0 x1 x2 v35 (ix2 (0 : Fin 1) j) = v35 (ix2 (0 : Fin 1) j) + blockSum x0 x1 x2 j := by
  rw [pay4_eq]
  show v35 (ix2 (0 : Fin 1) j) + shapeCast S1x128
      (multiReduction (F := Ideal) .add [0] S128 (termBlock x0 x1 x2) 0x00000000#32 reduces_S8192x128_S128 (.inl rfl) rfl)
      shapeCasts_S128_S1x128 (ix2 (0 : Fin 1) j) = _
  rw [shapeCast_a_1a_apply, colSum_apply]

end Cert.KernelIdeal.Payload

end
-- ==== Proof.KernelAcc.lean ====
/-
  The running row of partial sums, step by step.

  After step n the scratch row holds, in lane j, the sum of the column-j sums of the blocks of the current group
  of sixteen up to block n (Spec.acc of the blocks' contributions): the first step of a group starts from zero,
  every other step adds its block's column sums to what the step before left. At the last step of a group the
  output block holds the same row.
-/
import proofs.«146837_j3049426780528_2_alg».proof.Proof.Gen.KernelIdeal.Frame
import proofs.«146837_j3049426780528_2_alg».proof.Proof.KernelPieces
import proofs.«146837_j3049426780528_2_alg».proof.Proof.KernelPayload
import proofs.«146837_j3049426780528_2_alg».proof.Proof.Spec
import Idealize.ShloMosaic.Lib.ValueLayout

noncomputable section

open Idealize.ShloMosaic Idealize.ShloMosaic.TcCoe Idealize.SL.Sem

namespace Cert.KernelIdeal.Acc

open Cert.KernelIdeal Cert.KernelIdeal.Gen Idealize.ShloMosaic.ValueIdx

variable (m : (ℓ : Loc nD τ sig) → Buf (Elt Ideal) ℓ)

/-- The scratch row after one step, lane j: what it held in that lane plus the block's column-j sum. -/
theorem step_apply (x0 : FVec Ideal S8192x128 .f32) (x1 : IVec S8192x1 32) (x2 : FVec Ideal S128x128 .bf16)
    (v35 : FVec Ideal S1x128 .f32) (j : Fin 128) :
    k0_pay1 (k0_pay4 (F := Ideal) x0 x1 x2 v35) (ix2 (0 : Fin 1) j)
      = v35 (ix2 (0 : Fin 1) j) + Payload.blockSum x0 x1 x2 j := by
  show shapeCast S1x128 (k0_pay4 (F := Ideal) x0 x1 x2 v35) shapeCasts_S1x128_S1x128 (ix2 (0 : Fin 1) j) = _
  rw [shapeCast_self]
  exact Payload.pay4_apply x0 x1 x2 v35 j

/-- The row of zeros the first step of a group stores. -/
theorem zero_apply (j : Fin 128) : k0_pay3 (F := Ideal) (ix2 (0 : Fin 1) j) = 0 := by
  show shapeCast S1x128 (broadcast S1x128 (Scalar.ofBits (F := Ideal) .f32 0x00000000#32)) shapeCasts_S1x128_S1x128
    (ix2 (0 : Fin 1) j) = 0
  rw [shapeCast_self]
  exact Ideal.ofBits_zero_f32

/-- The output block is the scratch row with a leading unit axis: entry (0, 0, j) is the row's entry (0, j). -/
theorem pay2_apply (v : FVec Ideal S1x128 .f32) (j : Fin 128) :
    k0_pay2 (F := Ideal) v (ix3 (0 : Fin 1) (0 : Fin 1) j) = v (ix2 (0 : Fin 1) j) :=
  shapeCast_ab_1ab_apply v shapeCasts_S1x128_S1x1x128 (0 : Fin 1) (0 : Fin 1) j

/-- Block n's contribution to lane j: the column-j sum of the loss terms of its 8192 rows (zero past the grid). -/
def contrib (c : Dev nD) (n : ℕ) (j : Fin 128) : EReal :=
  if h : n < cfg0.N then Payload.blockSum (iblk m c 0 ⟨n, h⟩) (iblk m c 1 ⟨n, h⟩) (iblk m c 2 ⟨n, h⟩) j else 0

theorem contrib_eq (c : Dev nD) (t : Fin cfg0.N) (j : Fin 128) :
    contrib m c t.val j = Payload.blockSum (iblk m c 0 t) (iblk m c 1 t) (iblk m c 2 t) j := by
  unfold contrib
  rw [dif_pos t.isLt]

/-- The first step of a group leaves zero plus its block's contribution. -/
theorem scratch_first (c : Dev nD) (t : Fin cfg0.N) (h0 : t.val % 16 = 0) (j : Fin 128) :
    (outsAt0 m c t.val t.isLt).2 (ix2 (0 : Fin 1) j) = 0 + contrib m c t.val j := by
  have h1 : ¬t.val % 16 = 15 := by omega
  rw [outsAt0_A m c t h0 h1]
  dsimp only
  refine (congrFun (Pieces.scratch_A (F := Ideal) c (grid0.coords t) (ms0_0 t) (hs0_0 t) (ms0_1 t) (hs0_1 t) (ms0_2 t) (hs0_2 t) (ms0_3 t) (hs0_3 t) scM0_0 (Memref.isWhole_whole _) _ _
    (iblk m c 0 t) (iblk m c 1 t) (iblk m c 2 t)) (ix2 (0 : Fin 1) j)).trans ?_
  refine (step_apply (iblk m c 0 t) (iblk m c 1 t) (iblk m c 2 t) k0_pay3 j).trans ?_
  rw [zero_apply, contrib_eq]

/-- Every other step adds its block's contribution to what the step before left. -/
theorem scratch_next (c : Dev nD) (t : Fin cfg0.N) (h0 : ¬t.val % 16 = 0) (j : Fin 128) :
    (outsAt0 m c t.val t.isLt).2 (ix2 (0 : Fin 1) j)
      = (outsAt0 m c (t.val - 1) (Nat.lt_of_le_of_lt (Nat.sub_le _ _) t.isLt)).2 (ix2 (0 : Fin 1) j) + contrib m c t.val j := by
  by_cases h1 : t.val % 16 = 15
  · rw [outsAt0_C m c t h0 h1]
    dsimp only
    refine (congrFun (Pieces.scratch_C (F := Ideal) c (grid0.coords t) (ms0_0 t) (hs0_0 t) (ms0_1 t) (hs0_1 t) (ms0_2 t) (hs0_2 t) (ms0_3 t) (hs0_3 t) scM0_0 (Memref.isWhole_whole _) _ _
      (iblk m c 0 t) (iblk m c 1 t) (iblk m c 2 t)
      (outsAt0 m c (t.val - 1) (Nat.lt_of_le_of_lt (Nat.sub_le _ _) t.isLt)).2) (ix2 (0 : Fin 1) j)).trans ?_
    refine (step_apply (iblk m c 0 t) (iblk m c 1 t) (iblk m c 2 t) _ j).trans ?_
    rw [contrib_eq]
  · rw [outsAt0_B m c t h0 h1]
    dsimp only
    refine (congrFun (Pieces.scratch_B (F := Ideal) c (grid0.coords t) (ms0_0 t) (hs0_0 t) (ms0_1 t) (hs0_1 t) (ms0_2 t) (hs0_2 t) (ms0_3 t) (hs0_3 t) scM0_0 (Memref.isWhole_whole _) _ _
      (iblk m c 0 t) (iblk m c 1 t) (iblk m c 2 t)
      (outsAt0 m c (t.val - 1) (Nat.lt_of_le_of_lt (Nat.sub_le _ _) t.isLt)).2) (ix2 (0 : Fin 1) j)).trans ?_
    refine (step_apply (iblk m c 0 t) (iblk m c 1 t) (iblk m c 2 t) _ j).trans ?_
    rw [contrib_eq]

/-- So the scratch row after step n is the running sum of the contributions, restarted every sixteenth step. -/
theorem scratch_eq (c : Dev nD) : ∀ (n : ℕ) (h : n < cfg0.N) (j : Fin 128),
    (outsAt0 m c n h).2 (ix2 (0 : Fin 1) j) = Spec.acc (contrib m c) n j
  | 0, h, j => (scratch_first m c ⟨0, h⟩ rfl j).trans rfl
  | n + 1, h, j => by
    rw [Spec.acc_step]
    by_cases h0 : (n + 1) % 16 = 0
    · rw [if_pos h0]
      exact scratch_first m c ⟨n + 1, h⟩ h0 j
    · rw [if_neg h0]
      refine (scratch_next m c ⟨n + 1, h⟩ h0 j).trans ?_
      show (outsAt0 m c n _).2 (ix2 (0 : Fin 1) j) + _ = Spec.acc (contrib m c) n j + _
      rw [scratch_eq c n (Nat.lt_of_succ_lt h) j]

/-- At the last step of a group the output block is the scratch row, with a leading unit axis. -/
theorem out_last (c : Dev nD) (t : Fin cfg0.N) (h1 : t.val % 16 = 15) (j : Fin 128) :
    (outsAt0 m c t.val t.isLt).1 (ix3 (0 : Fin 1) (0 : Fin 1) j) = Spec.acc (contrib m c) t.val j := by
  have h0 : ¬t.val % 16 = 0 := by omega
  rw [← scratch_eq m c t.val t.isLt j, outsAt0_C m c t h0 h1]
  dsimp only
  refine (congrFun (Pieces.out_C (F := Ideal) c (grid0.coords t) (ms0_0 t) (hs0_0 t) (ms0_1 t) (hs0_1 t) (ms0_2 t) (hs0_2 t) (ms0_3 t) (hs0_3 t) scM0_0 (Memref.isWhole_whole _) _ _
    (iblk m c 0 t) (iblk m c 1 t) (iblk m c 2 t)
    (outsAt0 m c (t.val - 1) (Nat.lt_of_le_of_lt (Nat.sub_le _ _) t.isLt)).2) (ix3 (0 : Fin 1) (0 : Fin 1) j)).trans ?_
  refine Eq.trans ?_ (congrFun (Pieces.scratch_C (F := Ideal) c (grid0.coords t) (ms0_0 t) (hs0_0 t) (ms0_1 t) (hs0_1 t) (ms0_2 t) (hs0_2 t) (ms0_3 t) (hs0_3 t) scM0_0 (Memref.isWhole_whole _) _ _
    (iblk m c 0 t) (iblk m c 1 t) (iblk m c 2 t)
    (outsAt0 m c (t.val - 1) (Nat.lt_of_le_of_lt (Nat.sub_le _ _) t.isLt)).2) (ix2 (0 : Fin 1) j)).symm
  exact pay2_apply _ j

end Cert.KernelIdeal.Acc

end
-- ==== Proof.KernelBlocks.lean ====
/-
  The arrays the region reads, and what the host does with its result.

  Before the region the host transposes the table (and changes its format, which is the identity on extended
  reals) and views the vector of labels as a column. So row r of block t of the logits is sample r + 8192 · t,
  the label in row r of block t of the label column is that sample's label, and entry (k, i) of the table the body
  sees is entry (i, k) of the table given. After the region the host sums the result array from zero and divides by
  the sample count.
-/
import proofs.«146837_j3049426780528_2_alg».proof.Proof.Gen.KernelIdeal.Frame
import Idealize.ShloMosaic.Lib.Pipeline.Value
import Idealize.ShloMosaic.Lib.StableHlo.Run
import Idealize.ShloMosaic.Lib.ValueLayout
import proofs.«146837_j3049426780528_2_alg».proof.Proof.LibColumnForms

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx Cert.ColumnForms

variable (m : (ℓ : Loc nD τ sig) → Buf (Elt Ideal) ℓ)

/-- The label column the region reads is the label vector viewed as a column. -/
theorem V_v2 (c : Dev nD) : (V m c main_v2 : S262144x1.Idx → BitVec 32)
    = shapeCast S262144x1 (m ((c : Thread nD τ).loc main_arg1)) shapeCasts_S262144_S262144x1 := by
  show StableHlo.after hostOps0 (fun b => m (c, b)) (Proc.devRef .tc main_v2) = _
  after_results
  rfl

/-- The table the region reads is the given table transposed. -/
theorem V_v1 (c : Dev nD) : (V m c main_v1 : S128x128.Idx → EReal)
    = truncf (F := Ideal) .bf16 (transpose S128x128 [1, 0] (m ((c : Thread nD τ).loc main_arg2)) transposes_S128x128_S128x128_1_0) bitsLt_bf16_f32 := by
  show StableHlo.after hostOps0 (fun b => m (c, b)) (Proc.devRef .tc main_v1) = _
  after_results

/-- The host's last lines: the region's result array summed from zero, divided by the sample count. -/
theorem tail_eq (c : Dev nD) (G : S2x1x128.Idx → EReal) (hG : (dats m 0 c).arrAt 3 cfg0.N = G) :
    Pipeline.afterTail₀ cfgs (dats m) 0 (V0 m) [hostOps1] c main_v5
      = Host.divf (F := Ideal) (Host.reduceAdd (F := Ideal) G (constant (F := Ideal) S_ .f32 0x00000000#32) reducesTo_S2x1x128_S_d0_1_2 h_S_)
          (constant (F := Ideal) S_ .f32 0x48800000#32) := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v3) = G :=
    (Pipeline.withArrays_arr spec0 launch0.win.arr_inj c _ _ 3).trans hG
  rw [e]

/-- Where the input blocks of step t sit in their arrays: block row t of the logits and of the label column, the
    whole table. -/
theorem idx_facts_in : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N, _)

theorem row_lt (t : Fin cfg0.N) (r : Fin 8192) : r.val + 8192 * t.val < 262144 := by
  have hN : t.val < 32 := lt_of_lt_of_eq t.isLt (show cfg0.N = 32 from N_0)
  have := r.isLt
  omega

/-- Row r of block t of the logits is sample r + 8192 · t. -/
theorem blk0_apply (c : Dev nD) (t : Fin cfg0.N) (r : Fin 8192) (k : Fin 128) :
    (iblk m c 0 t : FVec Ideal S8192x128 .f32) (ix2 r k)
      = m ((c : Thread nD τ).loc main_arg0) (ix2 ⟨r.val + 8192 * t.val, row_lt t r⟩ k) := by
  obtain ⟨e0, e1, -, -, -, -⟩ := idx_facts_in t
  unfold iblk
  rw [View.read_apply]
  show V m c main_arg0 (((cfg0.win 0).blk t).view.emb (ix2 r k)) = _
  rw [V_main_arg0]
  refine congrArg _ (funext fun a => Fin.ext ?_)
  match a with
  | ⟨0, _⟩ => show win0_0.index t (0 : Fin 2) * 8192 + 1 * r.val = r.val + 8192 * t.val; rw [e0]; omega
  | ⟨1, _⟩ => show win0_0.index t (1 : Fin 2) * 128 + 1 * k.val = k.val; rw [e1]; omega

/-- The label in row r of block t of the label column is the label of sample r + 8192 · t. -/
theorem blk1_apply (c : Dev nD) (t : Fin cfg0.N) (r : Fin 8192) :
    (iblk m c 1 t : IVec S8192x1 32) (ix2 r (0 : Fin 1))
      = m ((c : Thread nD τ).loc main_arg1) (ix1 ⟨r.val + 8192 * t.val, row_lt t r⟩) := by
  obtain ⟨-, -, e0, e1, -, -⟩ := idx_facts_in t
  unfold iblk
  rw [View.read_apply]
  show V m c main_v2 (((cfg0.win 1).blk t).view.emb (ix2 r (0 : Fin 1))) = _
  have ej : ((cfg0.win 1).blk t).view.emb (ix2 r (0 : Fin 1)) = ix2 (⟨r.val + 8192 * t.val, row_lt t r⟩ : Fin 262144) (0 : Fin 1) :=
    funext fun a => Fin.ext (by
      match a with
      | ⟨0, _⟩ => show win0_1.index t (0 : Fin 2) * 8192 + 1 * r.val = r.val + 8192 * t.val; rw [e0]; omega
      | ⟨1, _⟩ => show win0_1.index t (1 : Fin 2) * 1 + 1 * 0 = 0; rw [e1])
  rw [ej, V_v2, shapeCast_a_a1_apply]

/-- Entry (k, i) of the table the body sees is entry (i, k) of the table given. -/
theorem blk2_apply (c : Dev nD) (t : Fin cfg0.N) (k i : Fin 128) :
    (iblk m c 2 t : FVec Ideal S128x128 .bf16) (ix2 k i) = m ((c : Thread nD τ).loc main_arg2) (ix2 i k) := by
  obtain ⟨-, -, -, -, e0, e1⟩ := idx_facts_in t
  unfold iblk
  rw [View.read_apply]
  show V m c main_v1 (((cfg0.win 2).blk t).view.emb (ix2 k i)) = _
  have ej : ((cfg0.win 2).blk t).view.emb (ix2 k i) = ix2 k i :=
    funext fun a => Fin.ext (by
      match a with
      | ⟨0, _⟩ => show win0_2.index t (0 : Fin 2) * 128 + 1 * k.val = k.val; rw [e0]; omega
      | ⟨1, _⟩ => show win0_2.index t (1 : Fin 2) * 128 + 1 * i.val = i.val; rw [e1]; omega)
  rw [ej, V_v1]
  show transpose S128x128 [1, 0] (m ((c : Thread nD τ).loc main_arg2)) transposes_S128x128_S128x128_1_0 (ix2 k i) = _
  rw [transpose_ix2_apply]

end Cert.KernelIdeal.Blocks

end
-- ==== Proof.Total.lean ====
/-
  The mean loss, and the kernel's arrangement of it.

  The mean loss of 262144 samples is the sum over the samples of the sum over the classes of the loss terms, each
  sum taken from zero, divided by the sample count (total). Summing instead, for each of two groups and each
  class, the running sum after the group's sixteenth block gives the same number, when block t's contribution to
  class j is the sum of the class-j terms of its 8192 rows, row r of block t being sample r + 8192 · t.
-/
import proofs.«146837_j3049426780528_2_alg».proof.Proof.Spec

noncomputable section

namespace Cert.Spec

open Idealize.ShloMosaic Idealize.ShloMosaic.ValueIdx

/-- The mean loss as a function of the logits, the labels and the table. -/
def total (A0 : (⟨2, ![262144, 128]⟩ : Shape).Idx → EReal) (A1 : (⟨1, ![262144]⟩ : Shape).Idx → BitVec 32)
    (A2 : (⟨2, ![128, 128]⟩ : Shape).Idx → EReal) : EReal :=
  Ideal.div (0 + ∑ n : Fin 262144, (0 + ∑ j : Fin 128,
    lossTerm (fun k => A0 (ix2 n k)) (A1 (ix1 n)) (fun i' k => A2 (ix2 i' k)) j)) cnt

/-- The sum over the groups and classes of the running sums after each group's last block is the mean loss. -/
theorem grouped_eq_total (A0 : (⟨2, ![262144, 128]⟩ : Shape).Idx → EReal) (A1 : (⟨1, ![262144]⟩ : Shape).Idx → BitVec 32)
    (A2 : (⟨2, ![128, 128]⟩ : Shape).Idx → EReal) (contrib : ℕ → Fin 128 → EReal)
    (hc : ∀ (t : Fin (2 * 16)) (j : Fin 128), contrib t.val j = ∑ r : Fin 8192,
      (fun (n : Fin (2 * 16 * 8192)) (j : Fin 128) =>
        lossTerm (fun k => A0 (ix2 n k)) (A1 (ix1 n)) (fun i' k => A2 (ix2 i' k)) j) (finProdFinEquiv (t, r)) j) :
    Ideal.div (0 + ∑ a : Fin 2, ∑ j : Fin 128, acc contrib (16 * a.val + 15) j) cnt = total A0 A1 A2 := by
  unfold total
  have h1 : ∀ (a : Fin 2) (j : Fin 128),
      acc contrib (16 * a.val + 15) j = ∑ i ∈ Finset.range 16, contrib (16 * a.val + i) j :=
    fun a j => acc_closed contrib a.val j 15 (by omega)
  simp only [h1, zero_add]
  rw [sum_regroup contrib (fun (n : Fin (2 * 16 * 8192)) (j : Fin 128) =>
    lossTerm (fun k => A0 (ix2 n k)) (A1 (ix1 n)) (fun i' k => A2 (ix2 i' k)) j) hc]

/-- A sum over an index set of shape [a, 1, b] is the double sum over its first and last coordinates. -/
theorem sum_idx3_unit {M : Type*} [AddCommMonoid M] {n0 n2 : Nat} (f : (⟨3, ![n0, 1, n2]⟩ : Shape).Idx → M) :
    ∑ y, f y = ∑ a : Fin n0, ∑ j : Fin n2, f (ix3 a (0 : Fin 1) j) := by
  let e : (⟨3, ![n0, 1, n2]⟩ : Shape).Idx ≃ Fin n0 × Fin n2 :=
    { toFun := fun y => (y 0, y 2)
      invFun := fun p => ix3 p.1 (0 : Fin 1) p.2
      left_inv := fun y => by
        funext a
        match a with
        | ⟨0, _⟩ => rfl
        | ⟨1, _⟩ => exact Fin.ext (by have : (y 1).val < 1 := (y 1).isLt; show 0 = (y 1).val; omega)
        | ⟨2, _⟩ => rfl
      right_inv := fun _ => rfl }
  rw [← Equiv.sum_comp e.symm f, Fintype.sum_prod_type]
  rfl

end Cert.Spec

end
-- ==== Proof.KernelValue.lean ====
/-
  The kernel's result as one number.

  Each of the two groups of sixteen steps writes its output block once, after its last step, and the block then
  holds the group's row of column sums. So entry (a, 0, j) of the result array is the running sum after step
  16 a + 15 in lane j. The host then adds all 2 · 128 entries to zero and divides by the number of samples.
-/
import proofs.«146837_j3049426780528_2_alg».proof.Proof.Gen.KernelIdeal.Frame
import proofs.«146837_j3049426780528_2_alg».proof.Proof.KernelAcc
import proofs.«146837_j3049426780528_2_alg».proof.Proof.KernelBlocks
import proofs.«146837_j3049426780528_2_alg».proof.Proof.Total
import Idealize.ShloMosaic.Lib.Pipeline.Value
import Idealize.ShloMosaic.Lib.StableHlo.Run

noncomputable section

open Idealize.ShloMosaic Idealize.ShloMosaic.TcCoe Idealize.SL.Sem
open Idealize.ShloMosaic.Pipeline (Dat)

namespace Cert.KernelIdeal.KValue

open Cert.KernelIdeal Cert.KernelIdeal.Gen Idealize.ShloMosaic.ValueIdx

variable (m : (ℓ : Loc nD τ sig) → Buf (Elt Ideal) ℓ) (ρ : Dev nD → PrngReg)

/-- The result array of the region: entry (a, 0, j) is the running sum after the last step of group a, lane j. -/
def G3 (c : Dev nD) : S2x1x128.Idx → EReal := fun y =>
  Spec.acc (Acc.contrib m c) (16 * (y 0).val + 15) ⟨(y 2).val, (y 2).isLt⟩

theorem acc_congr (f : ℕ → Fin 128 → EReal) {n n' : ℕ} {j j' : Fin 128} (hn : n = n') (hj : j.val = j'.val) :
    Spec.acc f n j = Spec.acc f n' j' := by
  subst hn
  rw [Fin.ext hj]

/-- Where output block t sits in the result array: group t / 16, and the block is the whole of the last two axes. -/
theorem idx_facts3 : ∀ t : Fin cfg0.N, win0_3.index t (0 : Fin 3) = t.val / 16
    ∧ win0_3.index t (1 : Fin 3) = 0 ∧ win0_3.index t (2 : Fin 3) = 0 :=
  (by decide +kernel : ∀ t : Fin grid0.N, _)

/-- What a writing step writes back is its block of G3. -/
theorem flushed_eq (c : Dev nD) (t : Fin cfg0.N) (hf : (cfg0.win 3).flush t = true) :
    (dats m 0 c).flushed 3 t = ((cfg0.win 3).blk t).view.read (Elt Ideal) (G3 m c) := by
  have h15 : t.val % 16 = 15 := (flush0_3 t).mp hf
  obtain ⟨e0, e1, e2⟩ := idx_facts3 t
  show (cfg0.win 3).cut (grid0.coords t) ((dats m 0 c).after 3 t) = _
  rw [after0_3]
  funext y
  have hy0 : (y 0).val = 0 := by have : (y 0).val < 1 := (y 0).isLt; omega
  have hy1 : (y 1).val = 0 := by have : (y 1).val < 1 := (y 1).isLt; omega
  have hy : y = ix3 (0 : Fin 1) (0 : Fin 1) ⟨(y 2).val, (y 2).isLt⟩ := by
    funext a
    match a with
    | ⟨0, _⟩ => exact Fin.ext hy0
    | ⟨1, _⟩ => exact Fin.ext hy1
    | ⟨2, _⟩ => rfl
  show (outsAt0 m c t.val t.isLt).1 y = G3 m c (((cfg0.win 3).blk t).view.emb y)
  rw [hy]
  refine (Acc.out_last m c t h15 _).trans ?_
  unfold G3
  refine acc_congr _ ?_ ?_
  · show t.val = 16 * (win0_3.index t (0 : Fin 3) * 1 + 1 * 0) + 15
    rw [e0]; omega
  · show (y 2).val = win0_3.index t (2 : Fin 3) * 128 + 1 * (y 2).val
    rw [e2]; omega

/-- An index of the result array is in step t's block iff each coordinate is in the block's range on its axis. -/
theorem mem_blk (t : Fin cfg0.N) (i : S2x1x128.Idx) :
    i ∈ ((cfg0.win 3).blk t).view.set ↔ ∀ a : Fin 3, win0_3.index t a * S1x1x128.size a ≤ (i a).val
      ∧ (i a).val < win0_3.index t a * S1x1x128.size a + S1x1x128.size a := by
  show i ∈ ((View.whole main_v3).slice (win0_3.rect t)).set ↔ _
  rw [View.set_slice_whole, Rect.mem_set_unit]
  exact Iff.rfl

/-- Every entry of the result array is written by the last step of its group. -/
theorem cover (i : S2x1x128.Idx) :
    ∃ t : Fin cfg0.N, (cfg0.win 3).flush t = true ∧ i ∈ ((cfg0.win 3).blk t).view.set := by
  have hN : cfg0.N = 32 := N_0
  have h0 : (i 0).val < 2 := (i 0).isLt
  have h1 : (i 1).val < 1 := (i 1).isLt
  have h2 : (i 2).val < 128 := (i 2).isLt
  have hlt : 16 * (i 0).val + 15 < cfg0.N := lt_of_lt_of_eq (by omega : 16 * (i 0).val + 15 < 32) hN.symm
  obtain ⟨e0, e1, e2⟩ := idx_facts3 ⟨16 * (i 0).val + 15, hlt⟩
  refine ⟨⟨16 * (i 0).val + 15, hlt⟩, (flush0_3 _).mpr (by show (16 * (i 0).val + 15) % 16 = 15; omega), ?_⟩
  rw [mem_blk]
  intro a
  match a with
  | ⟨0, _⟩ =>
    show win0_3.index ⟨16 * (i 0).val + 15, hlt⟩ (0 : Fin 3) * 1 ≤ (i 0).val
      ∧ (i 0).val < win0_3.index ⟨16 * (i 0).val + 15, hlt⟩ (0 : Fin 3) * 1 + 1
    rw [e0]
    show (16 * (i 0).val + 15) / 16 * 1 ≤ (i 0).val ∧ (i 0).val < (16 * (i 0).val + 15) / 16 * 1 + 1
    omega
  | ⟨1, _⟩ =>
    show win0_3.index ⟨16 * (i 0).val + 15, hlt⟩ (1 : Fin 3) * 1 ≤ (i 1).val
      ∧ (i 1).val < win0_3.index ⟨16 * (i 0).val + 15, hlt⟩ (1 : Fin 3) * 1 + 1
    rw [e1]; omega
  | ⟨2, _⟩ =>
    show win0_3.index ⟨16 * (i 0).val + 15, hlt⟩ (2 : Fin 3) * 128 ≤ (i 2).val
      ∧ (i 2).val < win0_3.index ⟨16 * (i 0).val + 15, hlt⟩ (2 : Fin 3) * 128 + 128
    rw [e2]; omega

/-- So the result array of the region ends holding G3. -/
theorem final3 (c : Dev nD) : (dats m 0 c).arrAt 3 cfg0.N = G3 m c :=
  (dats m 0 c).arrAt_eq_of_cover 3 (G3 m c) (flushed_eq m c) cover

/-- The program's result: the result array summed from zero, divided by the sample count. -/
def result (c : Dev nD) : S_.Idx → EReal :=
  Host.divf (F := Ideal) (Host.reduceAdd (F := Ideal) (G3 m c) (constant (F := Ideal) S_ .f32 0x00000000#32)
    reducesTo_S2x1x128_S_d0_1_2 h_S_) (constant (F := Ideal) S_ .f32 0x48800000#32)

/-- The run, read: the result buffer at that number, the three arguments unchanged. -/
theorem run : θ_run defs (onTc (τ := τ) (main (F := Ideal))) ⟨m, fun _ => 0, ρ⟩ fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v5 (Pipeline.mem_restRefs_of main_v5 (by decide) (by decide))).trans
        (Blocks.tail_eq m c (G3 m c) (final3 m c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

/-- Block t's contribution to class j is the sum of the class-j loss terms of samples r + 8192 · t. -/
theorem contrib_rows (c : Dev nD) (t : Fin (2 * 16)) (j : Fin 128) :
    Acc.contrib m c t.val j = ∑ r : Fin 8192,
      (fun (n : Fin (2 * 16 * 8192)) (j : Fin 128) =>
        Spec.lossTerm (fun k => m ((c.tc : Thread nD τ).loc main_arg0) (ix2 n k))
          (m ((c.tc : Thread nD τ).loc main_arg1) (ix1 n))
          (fun i' k => m ((c.tc : Thread nD τ).loc main_arg2) (ix2 i' k)) j) (finProdFinEquiv (t, r)) j := by
  have hN : cfg0.N = 32 := N_0
  have hlt : t.val < cfg0.N := lt_of_lt_of_eq t.isLt hN.symm
  refine (Acc.contrib_eq m c ⟨t.val, hlt⟩ j).trans ?_
  unfold Payload.blockSum
  refine Finset.sum_congr rfl fun r _ => ?_
  have e0 : (fun k => (iblk m c 0 ⟨t.val, hlt⟩ : FVec Ideal S8192x128 .f32) (ix2 r k))
      = fun k => m ((c.tc : Thread nD τ).loc main_arg0) (ix2 (finProdFinEquiv (t, r)) k) :=
    funext fun k => (Blocks.blk0_apply m c ⟨t.val, hlt⟩ r k).trans
      (congrArg (fun n => m ((c.tc : Thread nD τ).loc main_arg0) (ix2 n k)) (Fin.ext rfl))
  have e1 : (iblk m c 1 ⟨t.val, hlt⟩ : IVec S8192x1 32) (ix2 r (0 : Fin 1))
      = m ((c.tc : Thread nD τ).loc main_arg1) (ix1 (finProdFinEquiv (t, r))) :=
    (Blocks.blk1_apply m c ⟨t.val, hlt⟩ r).trans
      (congrArg (fun n => m ((c.tc : Thread nD τ).loc main_arg1) (ix1 n)) (Fin.ext rfl))
  have e2 : (fun i' k => (iblk m c 2 ⟨t.val, hlt⟩ : FVec Ideal S128x128 .bf16) (ix2 k i'))
      = fun i' k => m ((c.tc : Thread nD τ).loc main_arg2) (ix2 i' k) :=
    funext fun i' => funext fun k => Blocks.blk2_apply m c ⟨t.val, hlt⟩ k i'
  exact congrFun (congr (congr (congrArg Spec.lossTerm e0) e1) e2) j

/-- The program's result is the mean loss of the three arguments. -/
theorem result_eq (c : Dev nD) : result m c = fun _ => Spec.total (m ((c.tc : Thread nD τ).loc main_arg0))
    (m ((c.tc : Thread nD τ).loc main_arg1)) (m ((c.tc : Thread nD τ).loc main_arg2)) := by
  funext i
  have hsum : Host.reduceAdd (F := Ideal) (G3 m c) (constant (F := Ideal) S_ .f32 0x00000000#32)
      reducesTo_S2x1x128_S_d0_1_2 h_S_ i = 0 + ∑ y : S2x1x128.Idx, G3 m c y := by
    simp only [Host.reduceAdd, Ideal.hostReduceAdd_def]
    refine (Ideal.hostReduceAdd_total reducesTo_S2x1x128_S_d0_1_2 (fun b => b.elim0) (G3 m c) _ i).trans ?_
    show Ideal.ofBits .f32 0x00000000#32 + _ = _
    rw [Ideal.ofBits_zero_f32]
  show Ideal.div (Host.reduceAdd (F := Ideal) (G3 m c) (constant (F := Ideal) S_ .f32 0x00000000#32)
      reducesTo_S2x1x128_S_d0_1_2 h_S_ i) (Ideal.ofBits .f32 0x48800000#32) = _
  rw [hsum, Spec.sum_idx3_unit]
  exact Spec.grouped_eq_total _ _ _ (Acc.contrib m c) (contrib_rows m c)

end Cert.KernelIdeal.KValue

end
-- ==== Proof.RefValue.lean ====
/-
  The reference, read entry by entry over the extended reals.

  The reference forms the whole 262144 × 128 matrix of loss terms at once: entry (n, i) is the loss term of class
  i for sample n (Spec.lossTerm of row n of the logits, label n and the table). It sums each row, sums the row
  sums, each from zero, and divides by the number of samples.
-/
import proofs.«146837_j3049426780528_2_alg».proof.Proof.Gen.ReferenceIdeal.Read
import proofs.«146837_j3049426780528_2_alg».proof.Proof.Spec
import proofs.«146837_j3049426780528_2_alg».proof.Proof.Total
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-- A rank-1 index set is its one coordinate range, so a sum over it is the sum over the coordinate. -/
def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The one-hot matrix: entry (n, k) is 1 when class k is the label of sample n. -/
theorem hot_apply (x1 : (⟨S262144, .i32⟩ : BufTy).Contents (Elt Ideal)) (n : Fin 262144) (k : Fin 128) :
    val_main_v0 (F := Ideal) x1 (ix2 n k) = Spec.hot (x1 (ix1 n)) k := by
  rw [val_main_v0_apply, val_main_call0_v4_apply, val_main_call0_v2_apply, val_main_call0_v0_apply,
    val_main_call0_v3_apply, val_main_call0_v1_apply]
  have e : idx_main_call0_v0 (idx_main_call0_v2 (ix2 n k)) = ix1 n := funext fun a => by match a with | ⟨0, _⟩ => rfl
  rw [e, Spec.cmpi_eq_comm]
  rfl

theorem hred : S262144x128.Reduces [1] S262144 := by decide

/-- The row maximum the reference takes is the maximum of the row's 128 entries, from -∞. -/
theorem rowMax_apply (x0 : (⟨S262144x128, .f32⟩ : BufTy).Contents (Elt Ideal)) (n : Fin 262144) :
    val_main_v1 (F := Ideal) x0 (ix1 n) = Spec.rowMax (fun k => x0 (ix2 n k)) := by
  have h1 : val_main_v1 (F := Ideal) x0 (ix1 n)
      = Finset.fold (FloatOps.maximumf (F := Ideal) (φ := .f32)) (val_main_cst (F := Ideal) (Shape.Idx.first h_S_))
          (x0 ∘ hred.lift (ix1 n)) (Finset.univ : Finset (Fin (S262144x128.size 1))) :=
    Host.reduce_eq_fold_single (FloatOps.maximumf (F := Ideal) (φ := .f32)) x0 (val_main_cst (F := Ideal))
      reducesTo_S262144x128_S262144_d1 hred h_S_ (ix1 n)
  refine h1.trans ?_
  unfold Spec.rowMax
  show Finset.fold max Spec.negInf (x0 ∘ hred.lift (ix1 n)) (Finset.univ : Finset (Fin 128))
    = Finset.fold max Spec.negInf _ (Finset.univ : Finset (Fin 128))
  refine Finset.fold_congr fun k _ => ?_
  exact congrArg x0 (funext fun a => Fin.ext (by match a with | ⟨0, _⟩ => rfl | ⟨1, _⟩ => rfl))

/-- The shifted exponentials: entry (n, k) is exp (x n k - max of row n). -/
theorem expo_apply (x0 : (⟨S262144x128, .f32⟩ : BufTy).Contents (Elt Ideal)) (n : Fin 262144) (k : Fin 128) :
    val_main_v5 (F := Ideal) x0 (ix2 n k) = Spec.expo (fun k' => x0 (ix2 n k')) k := by
  rw [val_main_v5_apply, val_main_v4_apply, val_main_v3_apply, val_main_v2_apply]
  have e : idx_main_v2 (idx_main_v3 (ix2 n k)) = ix1 n := funext fun a => by match a with | ⟨0, _⟩ => rfl
  rw [e, rowMax_apply]
  rfl

/-- The masked exponentials: (1 - one-hot) · exp. -/
theorem masked_apply (x0 : (⟨S262144x128, .f32⟩ : BufTy).Contents (Elt Ideal)) (x1 : (⟨S262144, .i32⟩ : BufTy).Contents (Elt Ideal)) (n : Fin 262144) (k : Fin 128) :
    val_main_v8 (F := Ideal) x0 x1 (ix2 n k)
      = (Spec.one - Spec.hot (x1 (ix1 n)) k) * Spec.expo (fun k' => x0 (ix2 n k')) k := by
  rw [val_main_v8_apply, val_main_v7_apply, val_main_v6_apply, val_main_cst_0_apply, hot_apply, expo_apply]
  rfl

/-- Entry (n, i) of the matrix of loss terms. -/
theorem term_apply (x0 : (⟨S262144x128, .f32⟩ : BufTy).Contents (Elt Ideal)) (x1 : (⟨S262144, .i32⟩ : BufTy).Contents (Elt Ideal)) (x2 : (⟨S128x128, .f32⟩ : BufTy).Contents (Elt Ideal)) (n : Fin 262144) (i : Fin 128) :
    val_main_v18 (F := Ideal) x0 x1 x2 (ix2 n i)
      = Spec.lossTerm (fun k => x0 (ix2 n k)) (x1 (ix1 n)) (fun i' k => x2 (ix2 i' k)) i := by
  have hs : ∑ k : Fin 128, val_main_v8 (F := Ideal) x0 x1 (lidx_main_v9 (ix2 n i) k) * x2 (ridx_main_v9 (ix2 n i) k)
      = ∑ k : Fin 128, ((Spec.one - Spec.hot (x1 (ix1 n)) k) * Spec.expo (fun k' => x0 (ix2 n k')) k) * x2 (ix2 i k) :=
    Finset.sum_congr rfl fun k _ => by
      have el : lidx_main_v9 (ix2 n i) k = ix2 n k := funext fun a => by match a with | ⟨0, _⟩ => rfl | ⟨1, _⟩ => rfl
      have er : ridx_main_v9 (ix2 n i) k = ix2 i k := funext fun a => by match a with | ⟨0, _⟩ => rfl | ⟨1, _⟩ => rfl
      rw [el, er, masked_apply]
  rw [val_main_v18_apply, val_main_v14_apply, val_main_v17_apply, val_main_v16_apply, val_main_v15_apply,
    val_main_cst_2_apply, val_main_v13_apply, val_main_v12_apply, val_main_v11_apply, val_main_cst_1_apply,
    val_main_v10_apply, val_main_v9_apply, hs, hot_apply, expo_apply]
  unfold Spec.lossTerm
  show (-(Spec.hot (x1 (ix1 n)) i)) * _ = (0 - Spec.hot (x1 (ix1 n)) i) * _
  rw [sub_eq_add_neg, zero_add]
  rfl

/-- The sum of row n, from zero. -/
theorem rowSum_apply (x0 : (⟨S262144x128, .f32⟩ : BufTy).Contents (Elt Ideal)) (x1 : (⟨S262144, .i32⟩ : BufTy).Contents (Elt Ideal)) (x2 : (⟨S128x128, .f32⟩ : BufTy).Contents (Elt Ideal)) (n : Fin 262144) :
    val_main_v19 (F := Ideal) x0 x1 x2 (ix1 n)
      = 0 + ∑ j : Fin 128, Spec.lossTerm (fun k => x0 (ix2 n k)) (x1 (ix1 n)) (fun i' k => x2 (ix2 i' k)) j := by
  rw [val_main_v19_apply, val_main_cst_3_apply]
  show Ideal.ofBits .f32 0x00000000#32 + _ = _
  rw [Ideal.ofBits_zero_f32]
  refine congrArg (0 + ·) (Finset.sum_congr rfl fun j _ => ?_)
  have e : idx_main_v19 (ix1 n) j = ix2 n j := funext fun a => by match a with | ⟨0, _⟩ => rfl | ⟨1, _⟩ => rfl
  rw [e, term_apply]

/-- The reference's result is the mean loss of its three arguments. -/
theorem result_eq (x0 : (⟨S262144x128, .f32⟩ : BufTy).Contents (Elt Ideal)) (x1 : (⟨S262144, .i32⟩ : BufTy).Contents (Elt Ideal)) (x2 : (⟨S128x128, .f32⟩ : BufTy).Contents (Elt Ideal)) :
    val_main_v21 (F := Ideal) x0 x1 x2 = fun _ => Spec.total x0 x1 x2 := by
  funext i
  rw [val_main_v21_apply, val_main_v20_apply, val_main_cst_4_apply, val_main_cst_5_apply]
  show Ideal.div (Ideal.ofBits .f32 0x00000000#32 + ∑ q : S262144.Idx, val_main_v19 (F := Ideal) x0 x1 x2 q)
    (Ideal.ofBits .f32 0x48800000#32) = _
  rw [Ideal.ofBits_zero_f32, sum_idx1]
  unfold Spec.total
  refine congrArg (fun z => Ideal.div (0 + z) Spec.cnt) (Finset.sum_congr rfl fun n _ => ?_)
  exact rowSum_apply x0 x1 x2 n

end Cert.ReferenceIdeal.RefValue

end
-- ==== Proof.lean ====
/-
  The seesaw loss: a blocked, two-group accumulation against a whole-array reference, over the extended reals.

  Both programs compute the mean over 262144 samples of the sum over 128 classes of one loss term per sample and
  class (Spec.lossTerm): with m the largest logit of the sample's row, e = exp (x - m) and h the one-hot row of the
  label, term i = (0 - h i) · log (e i / ((Σ_k ((1 - h k) · e k) · s i k) + e i + ε) + ε).

  The reference forms all terms at once, sums each row from zero, sums the row sums from zero and divides by the
  count. The kernel walks 2 · 16 blocks of 8192 rows; per block it forms the same terms (its product with the
  transposed table is the reference's contraction, the change of float format being the identity here), sums
  each of the 128 columns over the block's rows, and adds that row of sums to a running row that restarts at the
  first block of each group of sixteen; after the last block of a group the running row is written out; the host
  adds the 2 · 128 numbers written, from zero, and divides by the count.

  The two agree because addition of extended reals is commutative and associative with zero neutral: the kernel's
  order of summation (rows of a block, blocks of a group, groups, classes) is a regrouping of the reference's (classes,
  then rows). No cancellation, distribution or finiteness is used, so the precondition is never opened. The three
  frames are the generated ones; nothing was rewritten between the kernel and its idealization.
-/
import proofs.«146837_j3049426780528_2_alg».proof.Defs
import proofs.«146837_j3049426780528_2_alg».proof.Proof.Gen.Kernel
import proofs.«146837_j3049426780528_2_alg».proof.Proof.Gen.Kernel.Frame
import proofs.«146837_j3049426780528_2_alg».proof.Proof.Gen.KernelIdeal
import proofs.«146837_j3049426780528_2_alg».proof.Proof.Gen.KernelIdeal.Frame
import proofs.«146837_j3049426780528_2_alg».proof.Proof.Gen.ReferenceIdeal
import proofs.«146837_j3049426780528_2_alg».proof.Proof.Gen.ReferenceIdeal.Run
import proofs.«146837_j3049426780528_2_alg».proof.Proof.Gen.ReferenceIdeal.Read
import proofs.«146837_j3049426780528_2_alg».proof.Proof.Gen.Pre_finite_inputs
import proofs.«146837_j3049426780528_2_alg».proof.Proof.KernelValue
import proofs.«146837_j3049426780528_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the mean loss of arguments that agree. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v21_eq (F := Ideal) _ _ _).trans ?_
  show _ = Cert.KernelIdeal.KValue.result m c
  rw [Cert.ReferenceIdeal.RefValue.result_eq, Cert.KernelIdeal.KValue.result_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
